-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S256x4 : Shape := ⟨2, ![256, 4]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S256x4 : S_.BroadcastsInDim S256x4 (![] : Fin 0 → Fin S256x4.rank)
  reducesTo_S256x4_S_d0_1 : S256x4.ReducesTo [0, 1] S_

variable [Facts]

def fn {F : FTy → Type} [FloatOps F] (main_arg0 : FVec F S4096x128 .f32) (main_arg1 : FVec F S256x4 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S256x4 .f32 := Host.absf main_arg1
  let main_cst_0 : FVec F S_ .f32 := constant S_ .f32 0x7F800000#32
  let main_v5 : FVec F S256x4 .f32 := broadcastInDim S256x4 ![] bcast_S_S256x4 main_cst_0
  let main_v6 : IVec S256x4 1 := cmpf .olt main_v4 main_v5
  let main_c_1 : IVec S_ 1 := constantI S_ 1 1#1
  let main_v7 : IVec S_ 1 := (fun x v => Host.reduce IntOp.andi x v reducesTo_S256x4_S_d0_1 h_S_) main_v6 main_c_1
  let main_v8 : IVec S_ 1 := andi main_v3 main_v7
  main_v8
-- ==== Kernel.lean ====
abbrev S4096x128 : Shape := ⟨2, ![4096, 128]⟩
abbrev S256x4 : Shape := ⟨2, ![256, 4]⟩
abbrev S128x4 : Shape := ⟨2, ![128, 4]⟩
abbrev S4096x4 : Shape := ⟨2, ![4096, 4]⟩
abbrev S4x4096 : Shape := ⟨2, ![4, 4096]⟩
abbrev S4x4096x4096 : Shape := ⟨3, ![4, 4096, 4096]⟩
abbrev S1024x4 : Shape := ⟨2, ![1024, 4]⟩
abbrev S4x512 : Shape := ⟨2, ![4, 512]⟩
abbrev S4x1024x512 : Shape := ⟨3, ![4, 1024, 512]⟩
abbrev S1024x512 : Shape := ⟨2, ![1024, 512]⟩
abbrev S1024x1 : Shape := ⟨2, ![1024, 1]⟩
abbrev S1x512 : Shape := ⟨2, ![1, 512]⟩
abbrev S1x1024x512 : Shape := ⟨3, ![1, 1024, 512]⟩
abbrev S4096x4096x4 : Shape := ⟨3, ![4096, 4096, 4]⟩

abbrev nBuf : Space → Nat
  | .hbm => 9
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S256x4, .f32⟩
  | .hbm, ⟨2, _⟩ => ⟨S128x4, .f32⟩
  | .hbm, ⟨3, _⟩ => ⟨S4096x4, .f32⟩
  | .hbm, ⟨4, _⟩ => ⟨S128x4, .f32⟩
  | .hbm, ⟨5, _⟩ => ⟨S4096x4, .f32⟩
  | .hbm, ⟨6, _⟩ => ⟨S4x4096, .f32⟩
  | .hbm, ⟨7, _⟩ => ⟨S4x4096x4096, .f32⟩
  | .hbm, ⟨8, _⟩ => ⟨S4096x4096x4, .f32⟩
  | .local _ .vmem, ⟨0, _⟩ => ⟨S1024x4, .f32⟩
  | .local _ .vmem, ⟨1, _⟩ => ⟨S1024x4, .f32⟩
  | .local _ .vmem, ⟨2, _⟩ => ⟨S4x512, .f32⟩
  | .local _ .vmem, ⟨3, _⟩ => ⟨S4x512, .f32⟩
  | .local _ .vmem, ⟨4, _⟩ => ⟨S4x1024x512, .f32⟩
  | .local _ .vmem, ⟨5, _⟩ => ⟨S4x1024x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S256x4_S128x4_0_0 : S256x4.Slices ![0, 0] S128x4
  slices_S256x4_S128x4_128_0 : S256x4.Slices ![128, 0] S128x4
  transposes_S4096x4_S4x4096_1_0 : S4096x4.Transposes [1, 0] S4x4096
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4x512_S4x512_0_0 : ∀ a, (![0, 0] : Fin 2 → Nat) a + S4x512.size a ≤ S4x512.size a
  h_S4x512 : 0 < S4x512.numel
  shapeCasts_S4x512_S4x512 : S4x512.ShapeCasts S4x512
  slices_S1024x4_o0_0_S1024x1 : S1024x4.Slices ![0, 0] S1024x1
  slices_S4x512_o0_0_S1x512 : S4x512.Slices ![0, 0] S1x512
  broadcasts_S1024x1_S1024x512 : S1024x1.Broadcasts S1024x512
  broadcasts_S1x512_S1024x512 : S1x512.Broadcasts S1024x512
  slices_S1024x4_o0_1_S1024x1 : S1024x4.Slices ![0, 1] S1024x1
  slices_S4x512_o1_0_S1x512 : S4x512.Slices ![1, 0] S1x512
  slices_S1024x4_o0_2_S1024x1 : S1024x4.Slices ![0, 2] S1024x1
  slices_S4x512_o2_0_S1x512 : S4x512.Slices ![2, 0] S1x512
  slices_S1024x4_o0_3_S1024x1 : S1024x4.Slices ![0, 3] S1024x1
  slices_S4x512_o3_0_S1x512 : S4x512.Slices ![3, 0] S1x512
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S4x1024x512_S1x1024x512_1_0_0 : ∀ a, (![1, 0, 0] : Fin 3 → Nat) a + S1x1024x512.size a ≤ S4x1024x512.size a
  inb_S4x1024x512_S1x1024x512_2_0_0 : ∀ a, (![2, 0, 0] : Fin 3 → Nat) a + S1x1024x512.size a ≤ S4x1024x512.size a
  inb_S4x1024x512_S1x1024x512_3_0_0 : ∀ a, (![3, 0, 0] : Fin 3 → Nat) a + S1x1024x512.size a ≤ S4x1024x512.size a
  transposes_S4x4096x4096_S4096x4096x4_1_2_0 : S4x4096x4096.Transposes [1, 2, 0] S4096x4096x4
  dot_S4096x128_S128x4_S4096x4_1_0_0_1_n_n_wf : DotDims.WF S4096x128 S128x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S4096x4.size a
  hwx0_0 : ∀ i : grid0.Coords, EltTy.bits .f32 = 32 ∨ (Rect.block (s := S4096x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x4096.size a
  hwx0_1 : ∀ i : grid0.Coords, EltTy.bits .f32 = 32 ∨ (Rect.block (s := S4x4096) S4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x512.size a ≤ S4x4096x4096.size a
  hwx0_2 : ∀ i : grid0.Coords, EltTy.bits .f32 = 32 ∨ (Rect.block (s := S4x4096x4096) S4x1024x512.size (cc0_transform_2 i) (hinb0_2 i)).WholeWords (EltTy.packing .f32)

variable [Facts₀]

def dot_S4096x128_S128x4_S4096x4_1_0_0_1_n_n : DotDims S4096x128 S128x4 S4096x4 where
  lhsContracting := [1]
  rhsContracting := [0]
  lhsNonContracting := [0]
  rhsNonContracting := [1]
  lhsBatch := []
  rhsBatch := []
  wf := dot_S4096x128_S128x4_S4096x4_1_0_0_1_n_n_wf

abbrev win0_0 : Pipeline.Window sig grid0 :=
  Pipeline.Window.ofSpec (Memref.whole main_v1) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128 : Shape := ⟨2, ![4096, 128]⟩
abbrev S256x4 : Shape := ⟨2, ![256, 4]⟩
abbrev S128x4 : Shape := ⟨2, ![128, 4]⟩
abbrev S4096x4 : Shape := ⟨2, ![4096, 4]⟩
abbrev S4096x1x4 : Shape := ⟨3, ![4096, 1, 4]⟩
abbrev S1x4096x4 : Shape := ⟨3, ![1, 4096, 4]⟩
abbrev S4096x4096x4 : Shape := ⟨3, ![4096, 4096, 4]⟩
abbrev S_ : Shape := ⟨0, ![]⟩
abbrev S4096x4096 : Shape := ⟨2, ![4096, 4096]⟩
abbrev S4096x4096x1 : Shape := ⟨3, ![4096, 4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S256x4, .f32⟩
  | .hbm, ⟨2, _⟩ => ⟨S128x4, .f32⟩
  | .hbm, ⟨3, _⟩ => ⟨S4096x4, .f32⟩
  | .hbm, ⟨4, _⟩ => ⟨S128x4, .f32⟩
  | .hbm, ⟨5, _⟩ => ⟨S4096x4, .f32⟩
  | .hbm, ⟨6, _⟩ => ⟨S4096x1x4, .f32⟩
  | .hbm, ⟨7, _⟩ => ⟨S1x4096x4, .f32⟩
  | .hbm, ⟨8, _⟩ => ⟨S4096x4096x4, .f32⟩
  | .hbm, ⟨9, _⟩ => ⟨S4096x4096x4, .f32⟩
  | .hbm, ⟨10, _⟩ => ⟨S4096x4096x4, .f32⟩
  | .hbm, ⟨11, _⟩ => ⟨S_, .f32⟩
  | .hbm, ⟨12, _⟩ => ⟨S4096x4096x4, .f32⟩
  | .hbm, ⟨13, _⟩ => ⟨S4096x4096x4, .f32⟩
  | .hbm, ⟨14, _⟩ => ⟨S4096x4096x4, .f32⟩
  | .hbm, ⟨15, _⟩ => ⟨S_, .f32⟩
  | .hbm, ⟨16, _⟩ => ⟨S4096x4096, .f32⟩
  | .hbm, ⟨17, _⟩ => ⟨S4096x4096x1, .f32⟩
  | .hbm, ⟨18, _⟩ => ⟨S4096x4096x4, .f32⟩
  | .hbm, ⟨19, _⟩ => ⟨S4096x4096x4, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_cst : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  slices_S256x4_S128x4_0_0 : S256x4.Slices ![0, 0] S128x4
  slices_S256x4_S128x4_128_0 : S256x4.Slices ![128, 0] S128x4
  bcast_S4096x4_S4096x1x4_0_2 : S4096x4.BroadcastsInDim S4096x1x4 (![0, 2] : Fin 2 → Fin S4096x1x4.rank)
  bcast_S4096x4_S1x4096x4_1_2 : S4096x4.BroadcastsInDim S1x4096x4 (![1, 2] : Fin 2 → Fin S1x4096x4.rank)
  bcast_S4096x1x4_S4096x4096x4_0_1_2 : S4096x1x4.BroadcastsInDim S4096x4096x4 (![0, 1, 2] : Fin 3 → Fin S4096x4096x4.rank)
  bcast_S1x4096x4_S4096x4096x4_0_1_2 : S1x4096x4.BroadcastsInDim S4096x4096x4 (![0, 1, 2] : Fin 3 → Fin S4096x4096x4.rank)
  bcast_S_S4096x4096x4 : S_.BroadcastsInDim S4096x4096x4 (![] : Fin 0 → Fin S4096x4096x4.rank)
  reducesTo_S4096x4096x4_S4096x4096_d2 : S4096x4096x4.ReducesTo [2] S4096x4096
  h_S_ : 0 < S_.numel
  bcast_S4096x4096_S4096x4096x1_0_1 : S4096x4096.BroadcastsInDim S4096x4096x1 (![0, 1] : Fin 2 → Fin S4096x4096x1.rank)
  bcast_S4096x4096x1_S4096x4096x4_0_1_2 : S4096x4096x1.BroadcastsInDim S4096x4096x4 (![0, 1, 2] : Fin 3 → Fin S4096x4096x4.rank)
  dot_S4096x128_S128x4_S4096x4_1_0_0_1_n_n_wf : DotDims.WF S4096x128 S128x4 S4096x4 [1] [0] [0] [1] [] []

variable [Facts₀]

def dot_S4096x128_S128x4_S4096x4_1_0_0_1_n_n : DotDims S4096x128 S128x4 S4096x4 where
  lhsContracting := [1]
  rhsContracting := [0]
  lhsNonContracting := [0]
  rhsNonContracting := [1]
  lhsBatch := []
  rhsBatch := []
  wf := dot_S4096x128_S128x4_S4096x4_1_0_0_1_n_n_wf

class Facts : Prop extends Facts₀ where

variable [Facts]
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.LibNormalize.lean ====
/-
  Dividing each of finitely many positive extended reals by their sum.

  The exponential of a nonnegative extended real is positive (at `+∞` it is `+∞`), so a sum of such
  exponentials over a nonempty index set is positive, hence not zero. Off zero the quotient of the extended
  reals is the product with the inverse, so multiplying by the reciprocal `1 / S` of a nonzero sum and dividing
  by `S` are the same number: no finiteness is needed, the infinities included. A sum of four terms
  accumulated from zero one term at a time is the sum over `Fin 4`.
-/
import Idealize.ShloMosaic.PureOps.Ideal

noncomputable section

namespace Idealize.ShloMosaic.Normalize

open Idealize.ShloMosaic

/-- The word `0x3F800000` denotes the real number one. -/
theorem ofBits_one_f32 : Ideal.ofBits .f32 0x3F800000#32 = 1 := by
  simp [Ideal.ofBits, Ideal.ieee, -EReal.coe_mul]; norm_num

/-- The exponential of a nonnegative extended real is positive. -/
theorem exp_pos_of_nonneg {y : EReal} (h : 0 ≤ y) : 0 < Ideal.exp y := by
  induction y using EReal.rec with
  | bot => exact absurd h (not_le.mpr EReal.bot_lt_zero)
  | coe r => rw [Ideal.exp_coe]; exact_mod_cast Real.exp_pos r
  | top => rw [Ideal.exp_top]; exact EReal.zero_lt_top

/-- The exponential of the positive part `max x 0` is positive, whatever `x`. -/
theorem exp_posPart_pos (x : EReal) : 0 < Ideal.exp (max x 0) := exp_pos_of_nonneg (le_max_right x 0)

/-- A sum of positive extended reals over a nonempty finite index set is positive. -/
theorem sum_pos_of_pos {ι : Type*} [Fintype ι] [Nonempty ι] (e : ι → EReal) (h : ∀ k, 0 < e k) : 0 < ∑ k, e k :=
  let ⟨k0⟩ := ‹Nonempty ι›
  lt_of_lt_of_le (h k0) (Finset.single_le_sum (fun i _ => (h i).le) (Finset.mem_univ k0))

/-- Off zero, multiplying by the reciprocal is dividing. -/
theorem mul_div_one {S : EReal} (hS : S ≠ 0) (s : EReal) : s * Ideal.div 1 S = Ideal.div s S := by
  rw [Ideal.div, Ideal.div, if_neg hS, if_neg hS, one_mul]

/-- Four terms accumulated from zero, one at a time, are their sum. -/
theorem acc4_eq_sum (e : Fin 4 → EReal) : (((0 + e 0) + e 1) + e 2) + e 3 = ∑ k, e k := by
  rw [Fin.sum_univ_four, zero_add]

/-- Each of four positive terms times the reciprocal of their accumulated sum is that term divided by the sum. -/
theorem mul_recip_acc4 (e : Fin 4 → EReal) (h : ∀ k, 0 < e k) (m : Fin 4) :
    e m * Ideal.div 1 ((((0 + e 0) + e 1) + e 2) + e 3) = Ideal.div (e m) (∑ k, e k) := by
  rw [acc4_eq_sum]
  exact mul_div_one (sum_pos_of_pos e h).ne' (e m)

end Idealize.ShloMosaic.Normalize

end
-- ==== Proof.Spec.lean ====
/-
  The pairwise attention scores, stated once over literal shapes.

  From node features `f : [4096, 128]` and weights `W : [256, 4]`, the source projection is
  `a i m = Σ_k f (i, k) · W (k, m)` over the upper 128 rows of `W` and the target projection is
  `b j m = Σ_k f (j, k) · W (128 + k, m)` over its lower 128 rows. The score of the pair `(i, j)` in channel
  `m` is `exp (max (a i m + b j m) 0)`, and the result at `(i, j, m)` is that score divided by the sum of the
  pair's four channel scores. Every score is positive, so the sum is not zero, and a score times the reciprocal of
  the sum accumulated from zero is the same quotient on the extended reals.
-/
import proofs.«139016_j86577950753177_2_alg».proof.Proof.LibNormalize
import Idealize.ShloMosaic.Lib.ValueIdx

noncomputable section

namespace Cert.PairAttn

open Idealize.ShloMosaic Idealize.ShloMosaic.ValueIdx

/-- The score of one channel of a pair: the exponential of the positive part of the two contributions' sum. -/
def score (a b : EReal) : EReal := Ideal.exp (max (a + b) 0)

/-- A score is positive. -/
theorem score_pos (a b : EReal) : 0 < score a b := Normalize.exp_posPart_pos _

/-- Channel `m`'s score over the sum of the four channels' scores. -/
def attn (a b : Fin 4 → EReal) (m : Fin 4) : EReal := Ideal.div (score (a m) (b m)) (∑ k, score (a k) (b k))

/-- A score times the reciprocal of the four scores accumulated from zero is the normalised score. -/
theorem score_mul_recip (a b : Fin 4 → EReal) (m : Fin 4) :
    score (a m) (b m) * Ideal.div 1 ((((0 + score (a 0) (b 0)) + score (a 1) (b 1)) + score (a 2) (b 2)) + score (a 3) (b 3))
      = attn a b m :=
  Normalize.mul_recip_acc4 (fun k => score (a k) (b k)) (fun _ => score_pos _ _) m

/-- The source projection: row `i` of `f` against column `m` of the upper half of `W`. -/
def projLo (f : (⟨2, ![4096, 128]⟩ : Shape).Idx → EReal) (W : (⟨2, ![256, 4]⟩ : Shape).Idx → EReal) (i : Fin 4096) (m : Fin 4) : EReal :=
  ∑ k : Fin 128, f (ix2 i k) * W (ix2 (⟨k.val, by have := k.isLt; omega⟩ : Fin 256) m)

/-- The target projection: row `j` of `f` against column `m` of the lower half of `W`. -/
def projHi (f : (⟨2, ![4096, 128]⟩ : Shape).Idx → EReal) (W : (⟨2, ![256, 4]⟩ : Shape).Idx → EReal) (j : Fin 4096) (m : Fin 4) : EReal :=
  ∑ k : Fin 128, f (ix2 j k) * W (ix2 (⟨128 + k.val, by have := k.isLt; omega⟩ : Fin 256) m)

/-- The normalised scores from two projection tables `A : [4096, 4]` (sources) and `Bm : [4096, 4]` (targets),
    at source `i`, target `j`, channel `m`. -/
def pairAttn (A Bm : Fin 4096 → Fin 4 → EReal) (i j : Fin 4096) (m : Fin 4) : EReal := attn (A i) (Bm j) m

/-- The result array `[4096, 4096, 4]`: at `(i, j, m)` the normalised score of the pair `(i, j)` in channel `m`. -/
def result (f : (⟨2, ![4096, 128]⟩ : Shape).Idx → EReal) (W : (⟨2, ![256, 4]⟩ : Shape).Idx → EReal) :
    (⟨3, ![4096, 4096, 4]⟩ : Shape).Idx → EReal :=
  fun z => pairAttn (projLo f W) (projHi f W) ⟨(z 0).val, (z 0).isLt⟩ ⟨(z 1).val, (z 1).isLt⟩ ⟨(z 2).val, (z 2).isLt⟩

/-- The result at an index written by coordinates. -/
theorem result_ix3 (f : (⟨2, ![4096, 128]⟩ : Shape).Idx → EReal) (W : (⟨2, ![256, 4]⟩ : Shape).Idx → EReal)
    (i j : Fin 4096) (m : Fin 4) : result f W (ix3 i j m) = pairAttn (projLo f W) (projHi f W) i j m := rfl

end Cert.PairAttn

end
-- ==== Proof.Body.lean ====
/-
  What one grid point leaves in the output block, as one function of its two input blocks.

  The body holds a block `x0 : [1024, 4]` of source projections and a block `x1 : [4, 512]` of transposed target
  projections. For channel `k` it stretches column `k` of `x0` along the columns and row `k` of `x1` along the
  rows, adds them, takes the positive part and the exponential: the tile of scores `score (x0 (p, k)) (x1 (k, q))`.
  It accumulates the four tiles from zero, takes the reciprocal, and stores each tile times the reciprocal as slab
  `k` of the `[4, 1024, 512]` block. So the block at `(k, p, q)` is channel `k`'s score over the sum of the four
  channel scores of row `p` of `x0` and column `q` of `x1`.
-/
import proofs.«139016_j86577950753177_2_alg».proof.Proof.Gen.KernelIdeal.Frame
import proofs.«139016_j86577950753177_2_alg».proof.Proof.LibKeepdims
import proofs.«139016_j86577950753177_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.PairAttn.Body

open Cert.KernelIdeal Cert.KernelIdeal.Gen
open Idealize.ShloMosaic Idealize.ShloMosaic.ValueIdx

theorem zero2 : (![0, 0] : Fin 2 → Nat) = fun _ => 0 := funext fun a => by fin_cases a <;> rfl

/-- Channel `k`'s tile of scores at `(p, q)`: column `k` of `x0` at row `p` against row `k` of `x1` at column `q`. -/
theorem tile_apply (o : Nat) (k : Fin 4) (hk : k.val = o) (x0 : FVec Ideal S1024x4 .f32) (x1 : FVec Ideal S4x512 .f32)
    (h0 : S1024x4.Slices ![0, o] S1024x1) (h1 : S4x512.Slices ![o, 0] S1x512) (p : Fin 1024) (q : Fin 512) :
    exp (maximumf (addf (broadcastTo S1024x512 (extractStridedSlice S1024x1 ![0, o] x0 h0) Facts₀.broadcasts_S1024x1_S1024x512)
        (broadcastTo S1024x512 (extractStridedSlice S1x512 ![o, 0] x1 h1) Facts₀.broadcasts_S1x512_S1024x512))
      (broadcast S1024x512 (Scalar.ofBits (F := Ideal) .f32 0x00000000#32))) (ix2 p q)
      = score (x0 (ix2 p k)) (x1 (ix2 k q)) := by
  show Ideal.exp (max (broadcastTo S1024x512 (extractStridedSlice S1024x1 ![0, o] x0 h0) Facts₀.broadcasts_S1024x1_S1024x512 (ix2 p q)
      + broadcastTo S1024x512 (extractStridedSlice S1x512 ![o, 0] x1 h1) Facts₀.broadcasts_S1x512_S1024x512 (ix2 p q))
      (Ideal.ofBits .f32 0x00000000#32)) = _
  rw [broadcastTo_a1_ab_apply, broadcastTo_1b_ab_apply,
    slice2_axis1_apply o x0 h0 p (0 : Fin 1) k (by show k.val = o + 0; omega),
    slice2_axis0_apply o x1 h1 (0 : Fin 1) q k (by show k.val = o + 0; omega), Ideal.ofBits_zero_f32]
  rfl

/-- The reciprocal of the four tiles accumulated from zero, at `(p, q)`. -/
theorem recip_apply (x0 : FVec Ideal S1024x4 .f32) (x1 : FVec Ideal S4x512 .f32) (p : Fin 1024) (q : Fin 512) :
    k0_pay4 (F := Ideal) x0 x1 (ix2 p q)
      = Ideal.div 1 ((((0 + score (x0 (ix2 p 0)) (x1 (ix2 0 q))) + score (x0 (ix2 p 1)) (x1 (ix2 1 q)))
          + score (x0 (ix2 p 2)) (x1 (ix2 2 q))) + score (x0 (ix2 p 3)) (x1 (ix2 3 q))) := by
  unfold k0_pay4 k0_pay2 k0_pay3
  simp only [shapeCast_self]
  rw [divf_apply, addf_apply, addf_apply, addf_apply, addf_apply, broadcast_apply, broadcast_apply,
    tile_apply 0 0 rfl, tile_apply 1 1 rfl, tile_apply 2 2 rfl, tile_apply 3 3 rfl]
  show Ideal.div (Ideal.ofBits .f32 0x3F800000#32) ((((Ideal.ofBits .f32 0x00000000#32 + _) + _) + _) + _) = _
  rw [Normalize.ofBits_one_f32, Ideal.ofBits_zero_f32]

/-- The first channel's contributions added, before the positive part, at `(p, q)`. -/
theorem first_apply (x0 : FVec Ideal S1024x4 .f32) (x1 : FVec Ideal S4x512 .f32) (p : Fin 1024) (q : Fin 512) :
    k0_pay5 (F := Ideal) x0 x1 (ix2 p q) = x0 (ix2 p 0) + x1 (ix2 0 q) := by
  unfold k0_pay5 k0_pay2 k0_pay3
  simp only [shapeCast_self]
  rw [addf_apply, broadcastTo_a1_ab_apply, broadcastTo_1b_ab_apply,
    slice2_axis1_apply 0 x0 _ p (0 : Fin 1) 0 rfl, slice2_axis0_apply 0 x1 _ (0 : Fin 1) q 0 rfl]

/-- Slab 0 as stored: the first tile, from its contributions already added, times the reciprocal. -/
theorem slab0_apply (v42 v47 : FVec Ideal S1024x512 .f32) (u : Fin 1) (p : Fin 1024) (q : Fin 512) :
    k0_pay6 (F := Ideal) v42 v47 (ix3 u p q) = Ideal.exp (max (v47 (ix2 p q)) 0) * v42 (ix2 p q) := by
  unfold k0_pay6
  rw [shapeCast_ab_1ab_apply]
  show Ideal.exp (max (v47 (ix2 p q)) (Ideal.ofBits .f32 0x00000000#32)) * v42 (ix2 p q) = _
  rw [Ideal.ofBits_zero_f32]

/-- Slab 1 as stored: the second tile times the reciprocal. -/
theorem slab1_apply (v1 : FVec Ideal S1024x4 .f32) (v3 : FVec Ideal S4x512 .f32) (v42 : FVec Ideal S1024x512 .f32)
    (u : Fin 1) (p : Fin 1024) (q : Fin 512) :
    k0_pay7 (F := Ideal) v1 v3 v42 (ix3 u p q) = score (v1 (ix2 p 1)) (v3 (ix2 1 q)) * v42 (ix2 p q) := by
  unfold k0_pay7
  rw [shapeCast_ab_1ab_apply, mulf_apply, tile_apply 1 1 rfl]

/-- Slab 2 as stored: the third tile times the reciprocal. -/
theorem slab2_apply (v1 : FVec Ideal S1024x4 .f32) (v3 : FVec Ideal S4x512 .f32) (v42 : FVec Ideal S1024x512 .f32)
    (u : Fin 1) (p : Fin 1024) (q : Fin 512) :
    k0_pay8 (F := Ideal) v1 v3 v42 (ix3 u p q) = score (v1 (ix2 p 2)) (v3 (ix2 2 q)) * v42 (ix2 p q) := by
  unfold k0_pay8
  rw [shapeCast_ab_1ab_apply, mulf_apply, tile_apply 2 2 rfl]

/-- Slab 3 as stored: the fourth tile times the reciprocal, given its leading unit axis afterwards. -/
theorem slab3_apply (v1 : FVec Ideal S1024x4 .f32) (v3 : FVec Ideal S4x512 .f32) (v42 : FVec Ideal S1024x512 .f32)
    (u : Fin 1) (p : Fin 1024) (q : Fin 512) :
    k0_pay1 (F := Ideal) (k0_pay9 v1 v3 v42) (ix3 u p q) = score (v1 (ix2 p 3)) (v3 (ix2 3 q)) * v42 (ix2 p q) := by
  unfold k0_pay1 k0_pay9
  simp only []
  rw [shapeCast_ab_1ab_apply, mulf_apply, tile_apply 3 3 rfl]

/-- The output block as one function of the two input blocks: at `(k, p, q)`, channel `k`'s score over the four
    channel scores of row `p` of `x0` and column `q` of `x1`. -/
def blockAttn (x0 : Vec Ideal S1024x4 .f32) (x1 : Vec Ideal S4x512 .f32) : S4x1024x512.Idx → EReal := fun y =>
  attn (fun k => x0 (ix2 (y 1 : Fin 1024) k)) (fun k => x1 (ix2 k (y 2 : Fin 512))) (y 0 : Fin 4)

theorem blockAttn_ix3 (x0 : Vec Ideal S1024x4 .f32) (x1 : Vec Ideal S4x512 .f32) (k : Fin 4) (p : Fin 1024) (q : Fin 512) :
    blockAttn x0 x1 (ix3 k p q) = attn (fun j => x0 (ix2 p j)) (fun j => x1 (ix2 j q)) k := rfl

/-- Entry `(u, p, q)` of the slab stored at offset `(k, 0, 0)` sits at `(k, p, q)` of the block. -/
theorem slab_emb (o : Nat) (k : Fin 4) (hk : k.val = o) (inb : ∀ a, (![o, 0, 0] : Fin 3 → Nat) a + S1x1024x512.size a ≤ S4x1024x512.size a)
    (u : Fin 1) (p : Fin 1024) (q : Fin 512) :
    (Rect.unit (s := S4x1024x512) ![o, 0, 0] S1x1024x512.size inb).emb (ix3 u p q) = ix3 k p q := by
  funext a; apply Fin.ext
  have hu : u.val = 0 := by omega
  match a with
  | ⟨0, _⟩ => show o + 1 * u.val = k.val; omega
  | ⟨1, _⟩ => show 0 + 1 * p.val = p.val; omega
  | ⟨2, _⟩ => show 0 + 1 * q.val = q.val; omega

/-- The piece stored at slab 0 is the block function there. -/
theorem piece0 (x0 : Vec Ideal S1024x4 .f32) (x1 : Vec Ideal S4x512 .f32) (x : S1x1024x512.Idx) :
    k0_pay6 (F := Ideal) (k0_pay4 x0 x1) (k0_pay5 x0 x1) x = blockAttn x0 x1 (r0_2.emb x) := by
  obtain ⟨u, p, q, rfl⟩ : ∃ (u : Fin 1) (p : Fin 1024) (q : Fin 512), x = ix3 u p q := ⟨x 0, x 1, x 2, eq_ix3 x⟩
  rw [slab_emb 0 0 rfl, blockAttn_ix3, ← score_mul_recip, slab0_apply, first_apply, recip_apply]
  rfl

/-- The piece stored at slab 1 is the block function there. -/
theorem piece1 (x0 : Vec Ideal S1024x4 .f32) (x1 : Vec Ideal S4x512 .f32) (x : S1x1024x512.Idx) :
    k0_pay7 (F := Ideal) (k0_pay2 x0) (k0_pay3 x1) (k0_pay4 x0 x1) x = blockAttn x0 x1 (r0_3.emb x) := by
  obtain ⟨u, p, q, rfl⟩ : ∃ (u : Fin 1) (p : Fin 1024) (q : Fin 512), x = ix3 u p q := ⟨x 0, x 1, x 2, eq_ix3 x⟩
  rw [slab_emb 1 1 rfl, blockAttn_ix3, ← score_mul_recip, slab1_apply, recip_apply]
  unfold k0_pay2 k0_pay3
  simp only [shapeCast_self]

/-- The piece stored at slab 2 is the block function there. -/
theorem piece2 (x0 : Vec Ideal S1024x4 .f32) (x1 : Vec Ideal S4x512 .f32) (x : S1x1024x512.Idx) :
    k0_pay8 (F := Ideal) (k0_pay2 x0) (k0_pay3 x1) (k0_pay4 x0 x1) x = blockAttn x0 x1 (r0_4.emb x) := by
  obtain ⟨u, p, q, rfl⟩ : ∃ (u : Fin 1) (p : Fin 1024) (q : Fin 512), x = ix3 u p q := ⟨x 0, x 1, x 2, eq_ix3 x⟩
  rw [slab_emb 2 2 rfl, blockAttn_ix3, ← score_mul_recip, slab2_apply, recip_apply]
  unfold k0_pay2 k0_pay3
  simp only [shapeCast_self]

/-- The piece stored at slab 3 is the block function there. -/
theorem piece3 (x0 : Vec Ideal S1024x4 .f32) (x1 : Vec Ideal S4x512 .f32) (x : S1x1024x512.Idx) :
    k0_pay1 (F := Ideal) (k0_pay9 (k0_pay2 x0) (k0_pay3 x1) (k0_pay4 x0 x1)) x = blockAttn x0 x1 (r0_5.emb x) := by
  obtain ⟨u, p, q, rfl⟩ : ∃ (u : Fin 1) (p : Fin 1024) (q : Fin 512), x = ix3 u p q := ⟨x 0, x 1, x 2, eq_ix3 x⟩
  rw [slab_emb 3 3 rfl, blockAttn_ix3, ← score_mul_recip, slab3_apply, recip_apply]
  unfold k0_pay2 k0_pay3
  simp only [shapeCast_self]

/-- WHAT THE BODY LEAVES in the output's buffer is the block function of its two input blocks: the four slabs are
    pieces of one function, and they tile the block. -/
theorem out_eq (x0 : Vec Ideal S1024x4 .f32) (x1 : Vec Ideal S4x512 .f32) : out0_2 (F := Ideal) x0 x1 = blockAttn x0 x1 := by
  funext y
  unfold out0_2
  simp only [View.ld_unit_zero (S := S1024x4) zero2, View.ld_unit_zero (S := S4x512) zero2]
  refine View.canon_apply_of_pieces (Val := Elt Ideal) (e := EltTy.f32) (blockAttn x0 x1) _ ?_ y (cover0_2 _ _ _ _ y)
  intro pc hpc x
  simp only [List.mem_cons, List.mem_nil_iff, or_false] at hpc
  rcases hpc with rfl | rfl | rfl | rfl
  · exact piece3 x0 x1 x
  · exact piece2 x0 x1 x
  · exact piece1 x0 x1 x
  · exact piece0 x0 x1 x

end Cert.PairAttn.Body

end
-- ==== Proof.Blocks.lean ====
/-
  From the blocks each grid point writes back to the whole `[4, 4096, 4096]` array.

  The grid is 4 × 8. Point `(gi, gj)` reads rows `1024·gi …` of the source projections `A : [4096, 4]` and columns
  `512·gj …` of the transposed target projections `Bt : [4, 4096]`, and writes the block of rows `1024·gi …` and
  columns `512·gj …` of every channel. What it writes is the block function of its two input blocks, which is the
  restriction to that block of ONE function of `A` and `Bt`: at `(k, i, j)`, channel `k`'s score over the four channel
  scores of row `i` of `A` and column `j` of `Bt`. The 32 blocks tile the array, so the array ends holding that function.
-/
import proofs.«139016_j86577950753177_2_alg».proof.Proof.Gen.KernelIdeal.Frame
import proofs.«139016_j86577950753177_2_alg».proof.Proof.Body
import Idealize.ShloMosaic.Lib.Pipeline.Value

noncomputable section

namespace Cert.PairAttn.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Normalised scores agree when the two contribution rows and the channel agree. -/
theorem attn_congr {a a' b b' : Fin 4 → EReal} {k k' : Fin 4} (ha : ∀ j, a j = a' j) (hb : ∀ j, b j = b' j) (hk : k = k') :
    attn a b k = attn a' b' k' := by
  rw [funext ha, funext hb, hk]

/-- The channel-major array of normalised scores from the source table `A` and the transposed target table `Bt`. -/
def stack (A : S4096x4.Idx → EReal) (Bt : S4x4096.Idx → EReal) : S4x4096x4096.Idx → EReal := fun z =>
  attn (fun k => A (ix2 (z 1 : Fin 4096) k)) (fun k => Bt (ix2 k (z 2 : Fin 4096))) (z 0 : Fin 4)

theorem stack_ix3 (A : S4096x4.Idx → EReal) (Bt : S4x4096.Idx → EReal) (k : Fin 4) (i j : Fin 4096) :
    stack A Bt (ix3 k i j) = attn (fun l => A (ix2 i l)) (fun l => Bt (ix2 l j)) k := rfl

/-- The printed index maps, decided over the 32 grid points: the source window moves with the output's row blocks,
    the target window with its column blocks, and the output's block indices stay in their ranges. -/
theorem idx_facts : ∀ t : Fin cfg0.N, win0_0.index t (0 : Fin 2) = win0_2.index t (1 : Fin 3)
    ∧ win0_0.index t (1 : Fin 2) = 0
    ∧ win0_1.index t (0 : Fin 2) = 0
    ∧ win0_1.index t (1 : Fin 2) = win0_2.index t (2 : Fin 3)
    ∧ win0_2.index t (0 : Fin 3) = 0
    ∧ win0_2.index t (1 : Fin 3) ≤ 3
    ∧ win0_2.index t (2 : Fin 3) ≤ 7 :=
  (by decide +kernel : ∀ t : Fin grid0.N, _)

/-- Every block of the array is some point's. -/
theorem idx_onto : ∀ (q1 : Fin 4) (q2 : Fin 8), ∃ t : Fin cfg0.N, win0_2.index t = ![0, q1.val, q2.val] :=
  (by decide +kernel : ∀ (q1 : Fin 4) (q2 : Fin 8), ∃ t : Fin grid0.N, win0_2.index t = ![0, q1.val, q2.val])

/-- WHAT POINT `t` WRITES BACK is block `t` of the channel-major array of normalised scores of the two tables as the
    region finds them. -/
theorem flushed_eq (c : Dev nD) (t : Fin cfg0.N) :
    (dats m 0 c).flushed 2 t = ((cfg0.win 2).blk t).view.read (Elt Ideal) (stack (V m c main_v1) (V m c main_v4)) := by
  show (cfg0.win 2).cut (grid0.coords t) ((dats m 0 c).after 2 t) = _
  rw [after0_2, Body.out_eq]
  obtain ⟨e0, e1, e2, e3, e4, e5, e6⟩ := idx_facts t
  funext j
  show Body.blockAttn (iblk m c 0 t) (iblk m c 1 t) j = stack (V m c main_v1) (V m c main_v4) (((cfg0.win 2).blk t).view.emb j)
  refine attn_congr (fun k => ?_) (fun k => ?_) (Fin.ext ?_)
  · show V m c main_v1 (((cfg0.win 0).blk t).view.emb (ix2 (j 1 : Fin 1024) k)) = V m c main_v1 (ix2 ((((cfg0.win 2).blk t).view.emb j) 1 : Fin 4096) k)
    have h : ((cfg0.win 0).blk t).view.emb (ix2 (j 1 : Fin 1024) k) = ix2 ((((cfg0.win 2).blk t).view.emb j) 1 : Fin 4096) k := by
      funext a; apply Fin.ext
      match a with
      | ⟨0, _⟩ => show win0_0.index t (0 : Fin 2) * 1024 + 1 * (j 1).val = win0_2.index t (1 : Fin 3) * 1024 + 1 * (j 1).val; rw [e0]
      | ⟨1, _⟩ => show win0_0.index t (1 : Fin 2) * 4 + 1 * k.val = k.val; rw [e1]; omega
    rw [h]; rfl
  · show V m c main_v4 (((cfg0.win 1).blk t).view.emb (ix2 k (j 2 : Fin 512))) = V m c main_v4 (ix2 k ((((cfg0.win 2).blk t).view.emb j) 2 : Fin 4096))
    have h : ((cfg0.win 1).blk t).view.emb (ix2 k (j 2 : Fin 512)) = ix2 k ((((cfg0.win 2).blk t).view.emb j) 2 : Fin 4096) := by
      funext a; apply Fin.ext
      match a with
      | ⟨0, _⟩ => show win0_1.index t (0 : Fin 2) * 4 + 1 * k.val = k.val; rw [e2]; omega
      | ⟨1, _⟩ => show win0_1.index t (1 : Fin 2) * 512 + 1 * (j 2).val = win0_2.index t (2 : Fin 3) * 512 + 1 * (j 2).val; rw [e3]
    rw [h]; rfl
  · show (j 0).val = win0_2.index t (0 : Fin 3) * 4 + 1 * (j 0).val
    rw [e4]; omega

/-- An index of the array is in point `t`'s block iff each coordinate is in the block's range on its axis. -/
theorem mem_blk (t : Fin cfg0.N) (i : S4x4096x4096.Idx) :
    i ∈ ((cfg0.win 2).blk t).view.set ↔ ∀ a : Fin 3, win0_2.index t a * S4x1024x512.size a ≤ (i a).val ∧ (i a).val < win0_2.index t a * S4x1024x512.size a + S4x1024x512.size a := by
  show i ∈ ((View.whole main_v5).slice (win0_2.rect t)).set ↔ _
  rw [View.set_slice_whole, Rect.mem_set_unit]
  exact Iff.rfl

/-- Every index of the array is in the block of the point whose row block is `i / 1024` and column block `j / 512`. -/
theorem cover (i : S4x4096x4096.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 1).val / 1024, by omega⟩ ⟨(i 2).val / 512, by omega⟩
  have q0 : win0_2.index t (0 : Fin 3) = 0 := congrFun ht 0
  have q1 : win0_2.index t (1 : Fin 3) = (i 1).val / 1024 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 512 ≤ (i 2).val ∧ (i 2).val < win0_2.index t (2 : Fin 3) * 512 + 512; omega

/-- THE ARRAY after the run: the channel-major normalised scores of the two tables as the region finds them. -/
theorem final (c : Dev nD) : (dats m 0 c).arrAt 2 cfg0.N = stack (V m c main_v1) (V m c main_v4) :=
  (dats m 0 c).arrAt_eq_of_cover 2 (stack (V m c main_v1) (V m c main_v4)) (fun t _ => flushed_eq m c t) cover

end Cert.PairAttn.Blocks

end
-- ==== Proof.LibDot.lean ====
/-
  The host's `dot_general` read at an index: for the dimension numbers that contract the left operand's second
  axis with the right operand's first (rows × inner times inner × columns, no batch axis), the product at the
  extended reals is, at `(i, j)`, the sum over the inner coordinate `k` of `lhs (i, k) · rhs (k, j)`,
  whatever the precision and the schedule key. Beside the same fact for a product into the zero accumulator this
  makes a row-tiled product and the whole product one function of the two matrices.
-/
import Idealize.ShloMosaic.PureOps.Ideal.Laws
import Idealize.ShloMosaic.Lib.ValueIdx

noncomputable section

namespace Idealize.ShloMosaic.ValueIdx

/-- The host's plain product, at `(i, j)`, as a sum over the inner coordinate. -/
theorem dotGeneral_plain_apply (M K N : ℕ) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.KernelValue.lean ====
/-
  The kernel's result as a function of its two arguments.

  Before the region the host computes the source table `A = f · W[0:128]` and the target table `B = f · W[128:256]`
  and transposes the second, so the region finds `A : [4096, 4]` and `Bt : [4, 4096]` with
  `A (i, k) = Σ_l f (i, l) · W (l, k)` and `Bt (k, j) = Σ_l f (j, l) · W (128 + l, k)`. The region leaves the
  channel-major array of normalised scores of these tables, and the host's last transpose moves the channel axis to
  the end: the result at `(i, j, k)` is channel `k`'s score of the pair `(i, j)` over the pair's four channel scores.
-/
import proofs.«139016_j86577950753177_2_alg».proof.Proof.Gen.KernelIdeal.Frame
import proofs.«139016_j86577950753177_2_alg».proof.Proof.Blocks
import proofs.«139016_j86577950753177_2_alg».proof.Proof.LibDot
import Idealize.ShloMosaic.Lib.Pipeline.Value
import Idealize.ShloMosaic.Lib.ValueLayout
import Idealize.ShloMosaic.Lib.StableHlo.Run

noncomputable section

namespace Cert.PairAttn.KernelValue

open Cert.KernelIdeal Cert.KernelIdeal.Gen Idealize.ShloMosaic Idealize.ShloMosaic.TcCoe Idealize.SL.Sem
open Idealize.ShloMosaic.ValueIdx Idealize.ShloMosaic.StableHlo
open Cert.PairAttn.Blocks

variable (m : (ℓ : Loc nD τ sig) → Buf (Elt Ideal) ℓ) (ρ : Dev nD → PrngReg)

/-- The feature argument as launched. -/
abbrev argF (c : Dev nD) : FVec Ideal S4096x128 .f32 := m ((c : Thread nD τ).loc main_arg0)
/-- The weight argument as launched. -/
abbrev argW (c : Dev nD) : FVec Ideal S256x4 .f32 := m ((c : Thread nD τ).loc main_arg1)

/-- The host's product of a `[4096, 128]` by a `[128, 4]` matrix at `(i, k)`: the sum over the inner coordinate. -/
theorem dot_apply (prec : Option ContractPrecision) (l : FVec Ideal S4096x128 .f32) (r : FVec Ideal S128x4 .f32)
    (i : Fin 4096) (k : Fin 4) :
    Host.dotGeneral dot_S4096x128_S128x4_S4096x4_1_0_0_1_n_n prec l r (ix2 i k) = ∑ l' : Fin 128, l (ix2 i l') * r (ix2 l' k) := by
  simp only [Host.dotGeneral]
  exact dotGeneral_plain_apply 4096 128 4 prec _ l r i k

/-- The source table as the region finds it. -/
theorem V_v1 (c : Dev nD) : (V m c main_v1 : S4096x4.Idx → EReal)
    = Host.dotGeneral dot_S4096x128_S128x4_S4096x4_1_0_0_1_n_n (some .fp32) (argF m c)
        (extractStridedSlice S128x4 ![0, 0] (argW m c) Facts₀.slices_S256x4_S128x4_0_0) := by
  show StableHlo.after hostOps0 (fun b => m (c, b)) (Proc.devRef .tc main_v1) = _
  after_results <;> rfl

/-- The transposed target table as the region finds it. -/
theorem V_v4 (c : Dev nD) : (V m c main_v4 : S4x4096.Idx → EReal)
    = transpose S4x4096 [1, 0] (Host.dotGeneral dot_S4096x128_S128x4_S4096x4_1_0_0_1_n_n (some .fp32) (argF m c)
        (extractStridedSlice S128x4 ![128, 0] (argW m c) Facts₀.slices_S256x4_S128x4_128_0)) Facts₀.transposes_S4096x4_S4x4096_1_0 := by
  show StableHlo.after hostOps0 (fun b => m (c, b)) (Proc.devRef .tc main_v4) = _
  after_results <;> rfl

/-- The product with the upper half of the weights, at `(i, k)`, is the source projection. -/
theorem lo_table (f : FVec Ideal S4096x128 .f32) (W : FVec Ideal S256x4 .f32) (i : Fin 4096) (k : Fin 4) :
    Host.dotGeneral dot_S4096x128_S128x4_S4096x4_1_0_0_1_n_n (some .fp32) f
        (extractStridedSlice S128x4 ![0, 0] W Facts₀.slices_S256x4_S128x4_0_0) (ix2 i k) = projLo f W i k := by
  rw [dot_apply]
  unfold projLo
  refine Finset.sum_congr rfl fun l _ => ?_
  rw [slice2_axis0_apply 0 W Facts₀.slices_S256x4_S128x4_0_0 l k ⟨l.val, by have := l.isLt; omega⟩ (by show l.val = 0 + l.val; omega)]

/-- The product with the lower half of the weights, at `(j, k)`, is the target projection. -/
theorem hi_table (f : FVec Ideal S4096x128 .f32) (W : FVec Ideal S256x4 .f32) (j : Fin 4096) (k : Fin 4) :
    Host.dotGeneral dot_S4096x128_S128x4_S4096x4_1_0_0_1_n_n (some .fp32) f
        (extractStridedSlice S128x4 ![128, 0] W Facts₀.slices_S256x4_S128x4_128_0) (ix2 j k) = projHi f W j k := by
  rw [dot_apply]
  unfold projHi
  refine Finset.sum_congr rfl fun l _ => ?_
  rw [slice2_axis0_apply 128 W Facts₀.slices_S256x4_S128x4_128_0 l k ⟨128 + l.val, by have := l.isLt; omega⟩ rfl]

/-- The source table at `(i, k)` is the source projection. -/
theorem A_apply (c : Dev nD) (i : Fin 4096) (k : Fin 4) :
    (V m c main_v1 : S4096x4.Idx → EReal) (ix2 i k) = projLo (argF m c) (argW m c) i k :=
  (congrFun (V_v1 m c) (ix2 i k)).trans (lo_table (argF m c) (argW m c) i k)

/-- The transposed target table at `(k, j)` is the target projection of `j`. -/
theorem Bt_apply (c : Dev nD) (k : Fin 4) (j : Fin 4096) :
    (V m c main_v4 : S4x4096.Idx → EReal) (ix2 k j) = projHi (argF m c) (argW m c) j k :=
  (congrFun (V_v4 m c) (ix2 k j)).trans
    ((transpose_ix2_apply _ Facts₀.transposes_S4096x4_S4x4096_1_0 k j).trans (hi_table (argF m c) (argW m c) j k))

/-- What the host's last transpose leaves in the result buffer: the normalised scores with the channel axis last. -/
theorem tail_eq (c : Dev nD) :
    Pipeline.afterTail₀ cfgs (dats m) 0 (V0 m) [hostOps1] c main_v6 = result (argF m c) (argW m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = stack (V m c main_v1) (V m c main_v4) :=
    (Pipeline.withArrays_arr spec0 launch0.win.arr_inj c _ _ 2).trans (final m c)
  rw [hw]
  show transpose S4096x4096x4 [1, 2, 0] (stack (V m c main_v1) (V m c main_v4)) Facts₀.transposes_S4x4096x4096_S4096x4096x4_1_2_0
      = (result (argF m c) (argW m c) : S4096x4096x4.Idx → EReal)
  funext z
  obtain ⟨i, j, k, rfl⟩ : ∃ (i j : Fin 4096) (k : Fin 4), z = ix3 i j k := ⟨z 0, z 1, z 2, eq_ix3 z⟩
  rw [result_ix3]
  refine (transpose_apply [1, 2, 0] _ Facts₀.transposes_S4x4096x4096_S4096x4096x4_1_2_0 (ix3 i j k) (ix3 k i j)
    (fun b => by match b with | ⟨0, _⟩ => rfl | ⟨1, _⟩ => rfl | ⟨2, _⟩ => rfl)).trans ?_
  rw [stack_ix3]
  exact attn_congr (fun l => A_apply m c i l) (fun l => Bt_apply m c l j) rfl

/-- THE KERNEL'S RUN, read: every weakly fair execution ends with the result buffer at the normalised scores of
    the two arguments, and the arguments as launched. -/
theorem run : θ_run defs (onTc (τ := τ) (main (F := Ideal))) ⟨m, fun _ => 0, ρ⟩ fun r => ∀ c : Dev nD,
      r.2.mem ((c : Thread nD τ).loc main_v6) = result (argF m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.PairAttn.KernelValue

end
-- ==== Proof.RefValue.lean ====
/-
  The reference's result is the specification.

  The reference forms the two projections with the host's `dot_general` over the two halves of `W`, stretches the
  source table along a new target axis and the target table along a new source axis, adds them, takes the positive
  part and the exponential, sums the four channels from zero, and divides each score by that sum. Read at
  `(i, j, k)` one operation at a time this is channel `k`'s score of the pair `(i, j)` over the pair's four scores.
-/
import proofs.«139016_j86577950753177_2_alg».proof.Proof.Gen.ReferenceIdeal.Read
import proofs.«139016_j86577950753177_2_alg».proof.Proof.Spec
import Idealize.ShloMosaic.PureOps.Ideal.Laws

noncomputable section

namespace Cert.PairAttn.RefValue

open Cert.ReferenceIdeal Cert.ReferenceIdeal.Read Idealize.ShloMosaic Idealize.ShloMosaic.ValueIdx

/-- The stretched source table at `(i, j, l)` is the source projection of `i`. -/
theorem lo_apply (x0 : FVec Ideal S4096x128 .f32) (x1 : FVec Ideal S256x4 .f32) (i j : Fin 4096) (l : Fin 4) :
    val_main_v6 (F := Ideal) x0 x1 (ix3 i j l) = projLo x0 x1 i l := by
  rw [val_main_v6_apply, val_main_v4_apply, val_main_v1_apply]
  unfold projLo
  refine Finset.sum_congr rfl fun k _ => ?_
  rw [val_main_v0_apply]
  have e1 : lidx_main_v1 (idx_main_v4 (idx_main_v6 (ix3 i j l))) k = ix2 i k :=
    funext fun a => Fin.ext (by match a with | ⟨0, _⟩ => rfl | ⟨1, _⟩ => rfl)
  have e2 : idx_main_v0 (ridx_main_v1 (idx_main_v4 (idx_main_v6 (ix3 i j l))) k)
      = ix2 (⟨k.val, by have := k.isLt; omega⟩ : Fin 256) l :=
    funext fun a => Fin.ext (by match a with | ⟨0, _⟩ => rfl | ⟨1, _⟩ => rfl)
  rw [e1, e2]

/-- The stretched target table at `(i, j, l)` is the target projection of `j`. -/
theorem hi_apply (x0 : FVec Ideal S4096x128 .f32) (x1 : FVec Ideal S256x4 .f32) (i j : Fin 4096) (l : Fin 4) :
    val_main_v7 (F := Ideal) x0 x1 (ix3 i j l) = projHi x0 x1 j l := by
  rw [val_main_v7_apply, val_main_v5_apply, val_main_v3_apply]
  unfold projHi
  refine Finset.sum_congr rfl fun k _ => ?_
  rw [val_main_v2_apply]
  have e1 : lidx_main_v3 (idx_main_v5 (idx_main_v7 (ix3 i j l))) k = ix2 j k :=
    funext fun a => Fin.ext (by match a with | ⟨0, _⟩ => rfl | ⟨1, _⟩ => rfl)
  have e2 : idx_main_v2 (ridx_main_v3 (idx_main_v5 (idx_main_v7 (ix3 i j l))) k)
      = ix2 (⟨128 + k.val, by have := k.isLt; omega⟩ : Fin 256) l :=
    funext fun a => Fin.ext (by match a with | ⟨0, _⟩ => rfl | ⟨1, _⟩ => rfl)
  rw [e1, e2]

/-- The exponentiated positive part at `(i, j, l)` is channel `l`'s score of the pair `(i, j)`. -/
theorem score_apply (x0 : FVec Ideal S4096x128 .f32) (x1 : FVec Ideal S256x4 .f32) (i j : Fin 4096) (l : Fin 4) :
    val_main_v10 (F := Ideal) x0 x1 (ix3 i j l) = score (projLo x0 x1 i l) (projHi x0 x1 j l) := by
  rw [val_main_v10_apply, val_main_v9_apply, val_main_v8_apply, lo_apply, hi_apply, val_main_call0_v0_apply,
    val_main_call0_cst_apply]
  show Ideal.exp (max (projLo x0 x1 i l + projHi x0 x1 j l) (Ideal.ofBits .f32 0x00000000#32)) = _
  rw [Ideal.ofBits_zero_f32]
  rfl

/-- THE REFERENCE'S RESULT is the specification's, index by index. -/
theorem ref_eq (x0 : FVec Ideal S4096x128 .f32) (x1 : FVec Ideal S256x4 .f32) :
    val_main_v14 (F := Ideal) x0 x1 = result x0 x1 := by
  funext z
  obtain ⟨i, j, k, rfl⟩ : ∃ (i j : Fin 4096) (k : Fin 4), z = ix3 i j k := ⟨z 0, z 1, z 2, eq_ix3 z⟩
  rw [result_ix3, val_main_v14_apply, val_main_v13_apply, val_main_v12_apply, val_main_v11_apply, score_apply,
    val_main_cst_apply]
  have e : ∀ k' : Fin 4, idx_main_v11 (idx_main_v12 (idx_main_v13 (ix3 i j k))) k' = ix3 i j k' := fun k' =>
    funext fun a => Fin.ext (by match a with | ⟨0, _⟩ => rfl | ⟨1, _⟩ => rfl | ⟨2, _⟩ => rfl)
  simp only [e, score_apply]
  show Ideal.div _ (Ideal.ofBits .f32 0x00000000#32 + _) = _
  rw [Ideal.ofBits_zero_f32, zero_add]
  rfl

end Cert.PairAttn.RefValue

end
-- ==== Proof.lean ====
/-
  Pairwise attention scores over four channels: the tiled kernel against the plain reference, on the extended reals.

  Both programs project the node features `f : [4096, 128]` through the two halves of `W : [256, 4]`, giving each
  source node `i` and each target node `j` four contributions, and both give the pair `(i, j)` in channel `k` the score
  `exp (max (a i k + b j k) 0)` divided by the sum of the pair's four scores. The kernel works on a 4 × 8 grid of
  `1024 × 512` tiles of pairs, keeps the channel axis first, multiplies each score by the reciprocal of the sum
  accumulated from zero, and the host moves the channel axis to the end afterwards; the reference stretches both
  tables to `[4096, 4096, 4]`, sums the last axis and divides.

  The two agree at every index. The projections are the same sums of products. Every score is the exponential of a
  nonnegative number, hence positive, so the sum of four scores is not zero, and off zero a product with the
  reciprocal is the quotient, the infinities included: the equality holds for all extended-real inputs and the
  precondition is not used. The sum accumulated one channel at a time from zero and the sum over the channel axis
  from zero are the same four terms. The 32 blocks written by the grid points tile the array, and each is the
  restriction of one function of the two tables.
-/
import proofs.«139016_j86577950753177_2_alg».proof.Defs
import proofs.«139016_j86577950753177_2_alg».proof.Proof.Gen.Kernel
import proofs.«139016_j86577950753177_2_alg».proof.Proof.Gen.Kernel.Skeleton
import proofs.«139016_j86577950753177_2_alg».proof.Proof.Gen.Kernel.Launch
import proofs.«139016_j86577950753177_2_alg».proof.Proof.Gen.Kernel.Points
import proofs.«139016_j86577950753177_2_alg».proof.Proof.Gen.Kernel.Frame
import proofs.«139016_j86577950753177_2_alg».proof.Proof.Gen.KernelIdeal
import proofs.«139016_j86577950753177_2_alg».proof.Proof.Gen.KernelIdeal.Skeleton
import proofs.«139016_j86577950753177_2_alg».proof.Proof.Gen.KernelIdeal.Launch
import proofs.«139016_j86577950753177_2_alg».proof.Proof.Gen.KernelIdeal.Points
import proofs.«139016_j86577950753177_2_alg».proof.Proof.Gen.KernelIdeal.Frame
import proofs.«139016_j86577950753177_2_alg».proof.Proof.Gen.ReferenceIdeal
import proofs.«139016_j86577950753177_2_alg».proof.Proof.Gen.Pre_finite_inputs
import proofs.«139016_j86577950753177_2_alg».proof.Proof.Gen.ReferenceIdeal.Run
import proofs.«139016_j86577950753177_2_alg».proof.Proof.Gen.ReferenceIdeal.Read
import proofs.«139016_j86577950753177_2_alg».proof.Proof.KernelValue
import proofs.«139016_j86577950753177_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on `f` and `W` both programs end with the normalised scores of `f` and `W`: the kernel's
    tiled, reciprocal-multiplied, channel-first computation and the reference's whole-array quotient are one
    function of the arguments. -/
theorem algebraic : Cert.algebraic_KernelIdeal_ReferenceIdeal := by
  intro m ρ m' ρ' _ hagree
  refine ⟨fun c => Cert.PairAttn.result (Cert.PairAttn.KernelValue.argF m c) (Cert.PairAttn.KernelValue.argW m c),
    Cert.PairAttn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.PairAttn.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
